-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x8192 : Shape := ⟨2, ![8192, 8192]⟩
abbrev S8192x64 : Shape := ⟨2, ![8192, 64]⟩
abbrev S512x8192 : Shape := ⟨2, ![512, 8192]⟩
abbrev S512x64 : Shape := ⟨2, ![512, 64]⟩
abbrev S512x2048 : Shape := ⟨2, ![512, 2048]⟩
abbrev S2048x64 : Shape := ⟨2, ![2048, 64]⟩

abbrev nBuf : Space → Nat
  | .hbm => 4
  | .vmem => 5
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .bf16⟩
  | .hbm, ⟨3, _⟩ => ⟨S8192x64, .f32⟩
  | .local _ .vmem, ⟨0, _⟩ => ⟨S512x8192, .f32⟩
  | .local _ .vmem, ⟨1, _⟩ => ⟨S512x8192, .f32⟩
  | .local _ .vmem, ⟨2, _⟩ => ⟨S8192x64, .bf16⟩
  | .local _ .vmem, ⟨3, _⟩ => ⟨S512x64, .f32⟩
  | .local _ .vmem, ⟨4, _⟩ => ⟨S512x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c2048_i32 : BitVec 32 := 2048#32
  let v1 : BitVec 32 := Scalar.muli c0_i32 c2048_i32
  v1
def k0_off1 (c0_i32 : BitVec 32) : Fin 2 → Nat :=
  let c0 : Index := 0#32
  let c2048_i32 : BitVec 32 := 2048#32
  let v1 : BitVec 32 := Scalar.muli c0_i32 c2048_i32
  let v2 : BitVec 32 := v1
  let v3 : Index := Scalar.indexCast v2
  ![0, v3.toNat]
def k0_off2 (c0_i32 : BitVec 32) : Fin 2 → Nat :=
  let c2048_i32 : BitVec 32 := 2048#32
  let v1 : BitVec 32 := Scalar.muli c0_i32 c2048_i32
  let v2 : BitVec 32 := v1
  let v6 : Index := Scalar.indexCast v2
  let c0_0 : Index := 0#32
  ![v6.toNat, 0]
def k0_mult2 : BitVec 32 :=
  let c1_i32 : BitVec 32 := 1#32
  let c2048_i32_2 : BitVec 32 := 2048#32
  let v11 : BitVec 32 := Scalar.muli c1_i32 c2048_i32_2
  v11
def k0_mult3 : BitVec 32 :=
  let c2_i32 : BitVec 32 := 2#32
  let c2048_i32_6 : BitVec 32 := 2048#32
  let v21 : BitVec 32 := Scalar.muli c2_i32 c2048_i32_6
  v21
def k0_mult4 : BitVec 32 :=
  let c3_i32 : BitVec 32 := 3#32
  let c2048_i32_10 : BitVec 32 := 2048#32
  let v31 : BitVec 32 := Scalar.muli c3_i32 c2048_i32_10
  v31
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  h_S512x2048 : 0 < S512x2048.numel
  h_S2048x64 : 0 < S2048x64.numel
  shapeCasts_S2048x64_S2048x64 : S2048x64.ShapeCasts S2048x64
  inb_S512x64_S512x64_0_0 : ∀ a, (![0, 0] : Fin 2 → Nat) a + S512x64.size a ≤ S512x64.size a
  h_S512x64 : 0 < S512x64.numel
  dot_S512x2048_S2048x64_S512x64_1_0_0_1_n_n_wf : DotDims.WF S512x2048 S2048x64 S512x64 [1] [0] [0] [1] [] []
  hrank0 : 0 < grid0.rank
  k0_mult1_dvd : 2048 ∣ k0_mult1.toNat
  k0_off1_inb : ∀ (r : Fin 4), ∀ a, (k0_off1 (BitVec.ofNat 32 r.val)) a + S512x2048.size a ≤ S512x8192.size a
  k0_off2_inb : ∀ (r : Fin 4), ∀ a, (k0_off2 (BitVec.ofNat 32 r.val)) a + S2048x64.size a ≤ S8192x64.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x64 : Shape := ⟨2, ![8192, 64]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x8192_S8192x64_S8192x64_1_0_0_1_n_n_wf : DotDims.WF S8192x8192 S8192x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.StoredBlock.lean ====
/-
  What one grid point leaves in the output's staging buffer, as a function of the two staged input blocks.

  The body reads the 512×8192 left block in four runs of 2048 columns and the 8192×64 right block in the four
  matching runs of 2048 rows, multiplies each pair of runs (into a zero accumulator), adds the four products in
  order onto a zero block, and stores the total over the whole 512×64 output block. Here that stored block is
  named as one term over the two blocks, for any float instance.
-/
import proofs.«176820_j9320079033050_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stored

open Cert.KernelIdeal Cert.KernelIdeal.Gen

variable {F : FTy → Type} [FloatOps F]

theorem hz : (![0, 0] : Fin 2 → Nat) = fun _ => 0 := funext fun a => by fin_cases a <;> rfl

/-- Columns `o … o + 2047` (all 512 rows) lie inside a 512×8192 block. -/
theorem colsIn (o : Nat) (h : o + 2048 ≤ 8192) :
    ∀ a, (![0, o] : Fin 2 → Nat) a + S512x2048.size a ≤ S512x8192.size a :=
  Fin.forall_fin_two.mpr ⟨by show 0 + 512 ≤ 512; omega, by show o + 2048 ≤ 8192; exact h⟩

/-- Rows `o … o + 2047` (all 64 columns) lie inside an 8192×64 block. -/
theorem rowsIn (o : Nat) (h : o + 2048 ≤ 8192) :
    ∀ a, (![o, 0] : Fin 2 → Nat) a + S2048x64.size a ≤ S8192x64.size a :=
  Fin.forall_fin_two.mpr ⟨by show o + 2048 ≤ 8192; exact h, by show 0 + 64 ≤ 64; omega⟩

/-- The run of columns `o … o + 2047` of the left block. -/
def cols (x0 : Vec F S512x8192 .f32) (o : Nat) (h : o + 2048 ≤ 8192) : Vec F S512x2048 .f32 :=
  View.ld x0 (Rect.unit (s := S512x8192) ![0, o] S512x2048.size (colsIn o h))

/-- The run of rows `o … o + 2047` of the right block. -/
def rows (x1 : Vec F S8192x64 .bf16) (o : Nat) (h : o + 2048 ≤ 8192) : Vec F S2048x64 .bf16 :=
  View.ld x1 (Rect.unit (s := S8192x64) ![o, 0] S2048x64.size (rowsIn o h))

/-- The block the body stores: the body's arithmetic applied to the four runs of columns of the left block and
    the four runs of rows of the right block. -/
def stored (x0 : Vec F S512x8192 .f32) (x1 : Vec F S8192x64 .bf16) : FVec F S512x64 .f32 :=
  k0_pay1
    (k0_pay2 (cols x0 0 (by omega)) (rows x1 0 (by omega)) (cols x0 2048 (by omega)) (rows x1 2048 (by omega))
      (cols x0 4096 (by omega)) (rows x1 4096 (by omega)))
    (k0_pay3 (cols x0 6144 (by omega))) (k0_pay4 (rows x1 6144 (by omega)))

/-- The body makes one store, over the whole output block; what it leaves there is `stored` of the two staged
    input blocks: each of its eight loads reads a run of columns (of rows) of a whole staging buffer. -/
theorem out_eq (c : Dev nD) (i : grid0.Coords) (a1 : Memref sig .tc .vmem S512x8192 .f32) (h1 : a1.IsWhole)
    (a2 : Memref sig .tc .vmem S8192x64 .bf16) (h2 : a2.IsWhole) (a3 : Memref sig .tc .vmem S512x64 .f32) (h3 : a3.IsWhole)
    (x0 : Vec F S512x8192 .f32) (x1 : Vec F S8192x64 .bf16) :
    out0_A_2 c i a1 h1 a2 h2 a3 h3 x0 x1 = stored x0 x1 := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread]
  rfl

end Cert.KernelIdeal.Stored

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.ChunkSum.lean ====
/-
  A sum over 8192 positions, taken as four consecutive runs of 2048 positions that are added, in order,
  onto zero. In any additive commutative monoid the running total after the fourth run is the whole sum:
  only associativity of addition and `0 + a = a` are used, so no finiteness of the terms is needed
  (the extended reals are such a monoid).
-/
import proofs.«176820_j9320079033050_2_alg».proof.Proof.LibBlockSum

open scoped BigOperators

namespace Cert.ChunkSum

variable {M : Type*} [AddCommMonoid M]

/-- `(((0 + S₀) + S₁) + S₂) + S₃ = Σ_{j < 8192} f j`, where `S_c = Σ_{k < 2048} f (2048·c + k)`. -/
theorem sum_four_runs (f : Fin 8192 → M) :
    (((0 + ∑ k : Fin 2048, f ⟨0 + k.val, by omega⟩) + ∑ k : Fin 2048, f ⟨2048 + k.val, by omega⟩)
        + ∑ k : Fin 2048, f ⟨4096 + k.val, by omega⟩) + ∑ k : Fin 2048, f ⟨6144 + k.val, by omega⟩
      = ∑ j : Fin 8192, f j := by
  have h : ∑ j : Fin 8192, f j = ∑ i : Fin 4, ∑ k : Fin 2048, f ⟨i.val * 2048 + k.val, by omega⟩ :=
    Cert.LibBlockSum.sum_blocks_fin 4 2048 f
  rw [h, Fin.sum_univ_four, zero_add]
  rfl

end Cert.ChunkSum
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.BlockEntry.lean ====
/-
  One entry of the block a grid point stores, over the extended reals.

  At the ideal instance a change of float format is the identity and every operation is exact, so entry `(p, q)`
  of the stored block is `(((0 + S₀) + S₁) + S₂) + S₃` with `S_c = Σ_{n < 2048} l(p, 2048·c + n) · r(2048·c + n, q)`
  (each matrix product into a zero accumulator is the plain sum of products), and that running total is the one sum
  `Σ_{n < 8192} l(p, n) · r(n, q)` over the whole contracted axis.
-/
import proofs.«176820_j9320079033050_2_alg».proof.Proof.StoredBlock
import proofs.«176820_j9320079033050_2_alg».proof.Proof.ChunkSum
import proofs.«176820_j9320079033050_2_alg».proof.Proof.LibDenseBlock
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Stored

open Cert.KernelIdeal Cert.KernelIdeal.Gen

/-- One of the body's four products: a run of columns, rounded to the narrow format, times a run of rows, into a
    zero accumulator. -/
def runProduct {F : FTy → Type} [FloatOps F] (l : Vec F S512x2048 .f32) (r : Vec F S2048x64 .bf16) : FVec F S512x64 .f32 :=
  matmul dot_S512x2048_S2048x64_S512x64_1_0_0_1_n_n none (truncf .bf16 l bitsLt_bf16_f32)
    (shapeCast S2048x64 r shapeCasts_S2048x64_S2048x64) (constant S512x64 .f32 0x00000000#32)

/-- The stored block is the four products added, in order, onto the zero block. -/
theorem stored_eq {F : FTy → Type} [FloatOps F] (x0 : Vec F S512x8192 .f32) (x1 : Vec F S8192x64 .bf16) :
    stored x0 x1
      = addf (addf (addf (addf (broadcast S512x64 (Scalar.ofBits .f32 0x00000000#32))
          (runProduct (cols x0 0 (by omega)) (rows x1 0 (by omega))))
          (runProduct (cols x0 2048 (by omega)) (rows x1 2048 (by omega))))
          (runProduct (cols x0 4096 (by omega)) (rows x1 4096 (by omega))))
          (runProduct (cols x0 6144 (by omega)) (rows x1 6144 (by omega))) := rfl

/-- Entry `(p, n)` of the run of columns from `o` is entry `(p, o + n)` of the block. -/
theorem cols_apply (x0 : Vec Ideal S512x8192 .f32) (o : Nat) (h : o + 2048 ≤ 8192) (p : Fin 512) (n : Fin 2048) :
    cols x0 o h (ix2 p n) = x0 (ix2 p ⟨o + n.val, by omega⟩) := by
  unfold cols
  exact congrArg x0 (funext fun a => Fin.ext (by
    match a with
    | ⟨0, _⟩ => show 0 + 1 * p.val = p.val; omega
    | ⟨1, _⟩ => show o + 1 * n.val = o + n.val; omega))

/-- Entry `(n, q)` of the run of rows from `o` is entry `(o + n, q)` of the block. -/
theorem rows_apply (x1 : Vec Ideal S8192x64 .bf16) (o : Nat) (h : o + 2048 ≤ 8192) (n : Fin 2048) (q : Fin 64) :
    rows x1 o h (ix2 n q) = x1 (ix2 ⟨o + n.val, by omega⟩ q) := by
  unfold rows
  exact congrArg x1 (funext fun a => Fin.ext (by
    match a with
    | ⟨0, _⟩ => show o + 1 * n.val = o + n.val; omega
    | ⟨1, _⟩ => show 0 + 1 * q.val = q.val; omega))

/-- Over the extended reals entry `(p, q)` of one product is `Σ_n l(p, n) · r(n, q)`. -/
theorem runProduct_apply (l : FVec Ideal S512x2048 .f32) (r : FVec Ideal S2048x64 .bf16) (p : Fin 512) (q : Fin 64) :
    runProduct (F := Ideal) l r (ix2 p q) = ∑ n : Fin 2048, l (ix2 p n) * r (ix2 n q) := by
  unfold runProduct
  rw [shapeCast_self]
  exact DenseBlock.matmul_zero_apply dot_S512x2048_S2048x64_S512x64_1_0_0_1_n_n_wf
    (truncf .bf16 l bitsLt_bf16_f32) r p q

/-- Over the extended reals entry `(p, q)` of the stored block is the full row-by-column sum of products. -/
theorem stored_apply (x0 : Vec Ideal S512x8192 .f32) (x1 : Vec Ideal S8192x64 .bf16) (p : Fin 512) (q : Fin 64) :
    stored x0 x1 (ix2 p q) = ∑ n : Fin 8192, x0 (ix2 p n) * x1 (ix2 n q) := by
  rw [stored_eq]
  simp only [addf_apply, broadcast_apply, runProduct_apply, cols_apply, rows_apply]
  show (((Ideal.ofBits .f32 0x00000000#32 + _) + _) + _) + _ = _
  rw [Ideal.ofBits_zero_f32]
  exact Cert.ChunkSum.sum_four_runs (fun n => x0 (ix2 p n) * x1 (ix2 n q))

end Cert.KernelIdeal.Stored

end
-- ==== Proof.RowByColumn.lean ====
/-
  The product of an 8192×8192 matrix with an 8192×64 matrix over the extended reals, entry by entry:
  entry `(i, q)` is `Σ_{n < 8192} a(i, n) · b(n, q)`. Both programs are shown to compute this one function.
-/
import Idealize.ShloMosaic.Lib.ValueIdx

noncomputable section

open scoped BigOperators

namespace Cert.RowByColumn

open Idealize.ShloMosaic Idealize.ShloMosaic.ValueIdx

/-- Row `i` of `a` against column `q` of `b`, summed over the shared axis. -/
def product (a : (⟨2, ![8192, 8192]⟩ : Shape).Idx → EReal) (b : (⟨2, ![8192, 64]⟩ : Shape).Idx → EReal) :
    (⟨2, ![8192, 64]⟩ : Shape).Idx → EReal :=
  fun j => ∑ n : Fin 8192, a (ix2 ⟨(j 0).val, idx2_lt0 j⟩ n) * b (ix2 n ⟨(j 1).val, idx2_lt1 j⟩)

/-- The product at an index given by its two coordinates. -/
theorem product_apply (a : (⟨2, ![8192, 8192]⟩ : Shape).Idx → EReal) (b : (⟨2, ![8192, 64]⟩ : Shape).Idx → EReal)
    (i : Fin 8192) (q : Fin 64) :
    product a b (ix2 i q) = ∑ n : Fin 8192, a (ix2 i n) * b (ix2 n q) := rfl

end Cert.RowByColumn

end
-- ==== Proof.KernelArray.lean ====
/-
  The kernel's result array over the extended reals.

  Grid point `t` (of 16) stages rows `512·t … 512·t + 511` of the left matrix, the whole right matrix (which the
  host has first rounded to the narrow format, the identity over the extended reals), and writes back rows
  `512·t … 512·t + 511` of the result. The block it writes back holds, at row `p` and column `q`, the full sum of
  products of row `512·t + p` of the left matrix with column `q` of the right matrix; the sixteen blocks tile the
  8192 rows, so the array after the run is the matrix product.
-/
import proofs.«176820_j9320079033050_2_alg».proof.Proof.Gen.KernelIdeal.Value
import proofs.«176820_j9320079033050_2_alg».proof.Proof.BlockEntry
import proofs.«176820_j9320079033050_2_alg».proof.Proof.RowByColumn
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.RowByColumn

variable (m : (ℓ : Loc nD τ sig) → Buf (Elt Ideal) ℓ) (ρ : Dev nD → PrngReg)

/-- The block indices at point `t`: the left matrix's and the result's blocks are the `t`-th block of rows, the
    right matrix's block is the whole matrix (decided over the 16 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s blocks is row `512·t + p` of the arrays. -/
def arrayRow (t : Fin cfg0.N) (p : Fin 512) : Fin 8192 :=
  ⟨t.val * 512 + p.val, by have h : t.val < 16 := lt_of_lt_of_eq t.isLt N_0; omega⟩

/-- The right matrix as the region finds it: the host's rounding of the second argument. -/
theorem V_right (c : Dev nD) (j : S8192x64.Idx) :
    V m c main_v0 j = m ((c : Thread nD τ).loc main_arg1) j := by
  have e : (V m c main_v0 : S8192x64.Idx → EReal)
      = (truncf .bf16 (m ((c : Thread nD τ).loc main_arg1)) bitsLt_bf16_f32 : FVec Ideal S8192x64 .bf16) := by
    dsimp only [V, hostOps0]; after_results
  exact congrFun e j

/-- The left block at point `t`, entry `(p, n)`, is the left array at `(512·t + p, n)`. -/
theorem left_apply (c : Dev nD) (t : Fin cfg0.N) (p : Fin 512) (n : Fin 8192) :
    iblk m c 0 t (ix2 p n) = V m c main_arg0 (ix2 (arrayRow t p) n) := by
  obtain ⟨e00, e01, -, -, -, -⟩ := idx_facts t
  show V m c main_arg0 (((cfg0.win 0).blk t).view.emb (ix2 p n)) = _
  refine congrArg (V m c main_arg0) (funext fun a => Fin.ext ?_)
  match a with
  | ⟨0, _⟩ => show win0_0.index t (0 : Fin 2) * 512 + 1 * p.val = t.val * 512 + p.val; rw [e00]; omega
  | ⟨1, _⟩ => show win0_0.index t (1 : Fin 2) * 8192 + 1 * n.val = n.val; rw [e01]; omega

/-- The right block at any point, entry `(n, q)`, is the right array at `(n, q)`. -/
theorem right_apply (c : Dev nD) (t : Fin cfg0.N) (n : Fin 8192) (q : Fin 64) :
    iblk m c 1 t (ix2 n q) = V m c main_v0 (ix2 n q) := by
  obtain ⟨-, -, e10, e11, -, -⟩ := idx_facts t
  show V m c main_v0 (((cfg0.win 1).blk t).view.emb (ix2 n q)) = _
  refine congrArg (V m c main_v0) (funext fun a => Fin.ext ?_)
  match a with
  | ⟨0, _⟩ => show win0_1.index t (0 : Fin 2) * 8192 + 1 * n.val = n.val; rw [e10]; omega
  | ⟨1, _⟩ => show win0_1.index t (1 : Fin 2) * 64 + 1 * q.val = q.val; rw [e11]; omega

/-- What point `t` writes back is block `t` of the matrix product of the arrays as the region finds them. -/
theorem flushed_eq (c : Dev nD) (t : Fin cfg0.N) :
    (dats m 0 c).flushed 2 t
      = ((cfg0.win 2).blk t).view.read (Elt Ideal) (product (V m c main_arg0) (V m c main_v0)) := by
  rw [Cert.KernelIdeal.Value.flushed2_A, Stored.out_eq]
  obtain ⟨-, -, -, -, e20, e21⟩ := idx_facts t
  funext y
  obtain ⟨p, q, rfl⟩ : ∃ (p : Fin 512) (q : Fin 64), y = ix2 p q := ⟨y 0, y 1, eq_ix2 y⟩
  have hy : ((cfg0.win 2).blk t).view.emb (ix2 p q) = ix2 (arrayRow t p) q := funext fun a => Fin.ext (by
    match a with
    | ⟨0, _⟩ => show win0_2.index t (0 : Fin 2) * 512 + 1 * p.val = t.val * 512 + p.val; rw [e20]; omega
    | ⟨1, _⟩ => show win0_2.index t (1 : Fin 2) * 64 + 1 * q.val = q.val; rw [e21]; omega)
  show Stored.stored (iblk m c 0 t) (iblk m c 1 t) (ix2 p q)
    = product (V m c main_arg0) (V m c main_v0) (((cfg0.win 2).blk t).view.emb (ix2 p q))
  rw [hy, product_apply]
  refine (Stored.stored_apply (iblk m c 0 t) (iblk m c 1 t) p q).trans ?_
  refine Finset.sum_congr rfl fun n _ => ?_
  rw [left_apply, right_apply]

/-- An index of the result array is in point `t`'s block iff each coordinate is in the block's range on its axis. -/
theorem mem_blk (t : Fin cfg0.N) (i : S8192x64.Idx) :
    i ∈ ((cfg0.win 2).blk t).view.set ↔ ∀ a : Fin 2, win0_2.index t a * S512x64.size a ≤ (i a).val
      ∧ (i a).val < win0_2.index t a * S512x64.size a + S512x64.size a := by
  show i ∈ ((View.whole main_v1).slice (win0_2.rect t)).set ↔ _
  rw [View.set_slice_whole, Rect.mem_set_unit]
  exact Iff.rfl

/-- Every index of the result array lies in the block of the point numbered by its row divided by 512. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e20, ht]; omega
  | ⟨1, _⟩ =>
    show win0_2.index t (1 : Fin 2) * 64 ≤ (i 1).val ∧ (i 1).val < win0_2.index t (1 : Fin 2) * 64 + 64
    rw [e21]; omega

/-- The result array after the run is the matrix product of the arrays as the region finds them. -/
theorem final (c : Dev nD) :
    (dats m 0 c).arrAt 2 cfg0.N = product (V m c main_arg0) (V m c main_v0) :=
  (dats m 0 c).arrAt_eq_of_cover 2 (product (V m c main_arg0) (V m c main_v0))
    (fun t _ => flushed_eq m c t) (cover)

/-- The arrays the region finds are the arguments (the right one through the host's rounding, the identity
    here), so the product of what the region finds is the product of the arguments. -/
theorem product_found (c : Dev nD) :
    product (V m c main_arg0) (V m c main_v0)
      = product (m ((c : Thread nD τ).loc main_arg0)) (m ((c : Thread nD τ).loc main_arg1)) := by
  rw [V_main_arg0]
  funext j
  unfold product
  refine Finset.sum_congr rfl fun n _ => ?_
  rw [V_right]

/-- The run: the result array ends at the matrix product of the two arguments, the arguments unchanged. -/
theorem run : θ_run defs (onTc (τ := τ) (main (F := Ideal))) ⟨m, fun _ => 0, ρ⟩ fun r => ∀ c : Dev nD,
      r.2.mem ((c : Thread nD τ).loc main_v1)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (product_found m c)), (h c).2⟩)
    (Cert.KernelIdeal.Value.run_blocks m ρ)

end Cert.KernelIdeal.Whole

end
-- ==== Proof.ReferenceArray.lean ====
/-
  The reference's result array over the extended reals: its one operation, a general dot product contracting the
  left matrix's columns with the right matrix's rows, is the matrix product entry by entry.
-/
import proofs.«176820_j9320079033050_2_alg».proof.Proof.Gen.ReferenceIdeal.Read
import proofs.«176820_j9320079033050_2_alg».proof.Proof.RowByColumn

noncomputable section

open Idealize.ShloMosaic Idealize.ShloMosaic.TcCoe Idealize.SL.Sem Idealize.ShloMosaic.ValueIdx

namespace Cert.ReferenceIdeal.Whole

open Cert.ReferenceIdeal Cert.ReferenceIdeal.Gen Cert.ReferenceIdeal.Read Cert.RowByColumn

/-- The reference's one stage is the matrix product of its two arguments. -/
theorem result_eq (a : (⟨S8192x8192, .f32⟩ : BufTy).Contents (Elt Ideal))
    (b : (⟨S8192x64, .f32⟩ : BufTy).Contents (Elt Ideal)) :
    val_main_v0 (F := Ideal) a b = product a b := by
  funext i
  rw [val_main_v0_apply]
  unfold product
  refine Finset.sum_congr rfl fun k _ => ?_
  have el : lidx_main_v0 i k = ix2 ⟨(i 0).val, idx2_lt0 i⟩ k :=
    funext fun d => Fin.ext (by match d with | ⟨0, _⟩ => rfl | ⟨1, _⟩ => rfl)
  have er : ridx_main_v0 i k = ix2 k ⟨(i 1).val, idx2_lt1 i⟩ :=
    funext fun d => Fin.ext (by match d with | ⟨0, _⟩ => rfl | ⟨1, _⟩ => rfl)
  rw [el, er]

end Cert.ReferenceIdeal.Whole

end
-- ==== Proof.lean ====
/-
  The kernel computes `location · motion` for an 8192×8192 matrix and an 8192×64 matrix: sixteen grid points, each
  producing 512 rows of the result, each walking the contracted axis in four runs of 2048 and adding the four partial
  products onto zero; the right matrix is rounded to a narrower float format first. The reference is one general dot
  product of the two arguments.

  Over the extended reals the rounding is the identity and every sum is exact, so both programs end at the same
  function of the arguments: entry `(i, q)` is `Σ_{n < 8192} location(i, n) · motion(n, q)`. The kernel's running total
  `(((0 + S₀) + S₁) + S₂) + S₃` over the four runs is that sum by associativity of addition and `0 + a = a` alone, which
  hold on the extended reals without any finiteness of the entries, so the precondition is not used for the values.

  The three programs' runs (termination, no fault, arguments unchanged) are the generated frame runs; the ideal pass
  rewrote nothing, so the idealization conjunct is trivial.
-/
import proofs.«176820_j9320079033050_2_alg».proof.Defs
import proofs.«176820_j9320079033050_2_alg».proof.Proof.Gen.Kernel
import proofs.«176820_j9320079033050_2_alg».proof.Proof.Gen.Kernel.Skeleton
import proofs.«176820_j9320079033050_2_alg».proof.Proof.Gen.Kernel.Launch
import proofs.«176820_j9320079033050_2_alg».proof.Proof.Gen.Kernel.Points
import proofs.«176820_j9320079033050_2_alg».proof.Proof.Gen.Kernel.Frame
import proofs.«176820_j9320079033050_2_alg».proof.Proof.Gen.KernelIdeal
import proofs.«176820_j9320079033050_2_alg».proof.Proof.Gen.KernelIdeal.Skeleton
import proofs.«176820_j9320079033050_2_alg».proof.Proof.Gen.KernelIdeal.Launch
import proofs.«176820_j9320079033050_2_alg».proof.Proof.Gen.KernelIdeal.Points
import proofs.«176820_j9320079033050_2_alg».proof.Proof.Gen.KernelIdeal.Frame
import proofs.«176820_j9320079033050_2_alg».proof.Proof.Gen.ReferenceIdeal
import proofs.«176820_j9320079033050_2_alg».proof.Proof.Gen.KernelIdeal.Value
import proofs.«176820_j9320079033050_2_alg».proof.Proof.Gen.ReferenceIdeal.Run
import proofs.«176820_j9320079033050_2_alg».proof.Proof.Gen.ReferenceIdeal.Read
import proofs.«176820_j9320079033050_2_alg».proof.Proof.Gen.Pre_finite_inputs
import proofs.«176820_j9320079033050_2_alg».proof.Proof.KernelArray
import proofs.«176820_j9320079033050_2_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the two arguments, end with the matrix product of the
    arguments in their result arrays. -/
theorem algebraic : Cert.algebraic_KernelIdeal_ReferenceIdeal := by
  intro m ρ m' ρ' _ hagree
  refine ⟨fun c => Cert.RowByColumn.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.RowByColumn.product _ _
  rw [← (hagree c).1, ← (hagree c).2]
  exact Cert.ReferenceIdeal.Whole.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
